-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2 : Shape := ⟨2, ![2048, 2]⟩
abbrev S2 : Shape := ⟨1, ![2]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S16384x2048 .f32) (main_arg1 : FVec F S2048x2 .f32) (main_arg2 : FVec F S2 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S16384x2048 : Shape := ⟨2, ![16384, 2048]⟩
abbrev S2048x2 : Shape := ⟨2, ![2048, 2]⟩
abbrev S2 : Shape := ⟨1, ![2]⟩
abbrev S512x2048 : Shape := ⟨2, ![512, 2048]⟩
abbrev S512x2 : Shape := ⟨2, ![512, 2]⟩
abbrev S1x2 : Shape := ⟨2, ![1, 2]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x2, .f32⟩
  | .hbm, ⟨2, _⟩ => ⟨S2, .f32⟩
  | .hbm, ⟨3, _⟩ => ⟨S16384x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2, .f32⟩
  | .local _ .vmem, ⟨3, _⟩ => ⟨S2, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  inb_S2048x2_S2048x2_0_0 : ∀ a, (![0, 0] : Fin 2 → Nat) a + S2048x2.size a ≤ S2048x2.size a
  h_S2048x2 : 0 < S2048x2.numel
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  natLt_1_32 : 1 < 32
  slices_S512x2_o0_0_S512x1 : S512x2.Slices ![0, 0] S512x1
  slices_S512x2_o0_1_S512x1 : S512x2.Slices ![0, 1] S512x1
  broadcasts_S512x1_S512x2048 : S512x1.Broadcasts S512x2048
  dot_S512x2048_S2048x2_S512x2_1_0_0_1_n_n_wf : DotDims.WF S512x2048 S2048x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S2048x2.size a
  hwx0_1 : ∀ i : grid0.Coords, EltTy.bits .f32 = 32 ∨ (Rect.block (s := S2048x2) S2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x2048_S2048x2_S512x2_1_0_0_1_n_n : DotDims S512x2048 S2048x2 S512x2 where
  lhsContracting := [1]
  rhsContracting := [0]
  lhsNonContracting := [0]
  rhsNonContracting := [1]
  lhsBatch := []
  rhsBatch := []
  wf := dot_S512x2048_S2048x2_S512x2_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2 : Shape := ⟨2, ![2048, 2]⟩
abbrev S2 : Shape := ⟨1, ![2]⟩
abbrev S16384x2 : Shape := ⟨2, ![16384, 2]⟩
abbrev S1x2 : Shape := ⟨2, ![1, 2]⟩
abbrev S_ : Shape := ⟨0, ![]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2, .f32⟩
  | .hbm, ⟨2, _⟩ => ⟨S2, .f32⟩
  | .hbm, ⟨3, _⟩ => ⟨S16384x2, .f32⟩
  | .hbm, ⟨4, _⟩ => ⟨S1x2, .f32⟩
  | .hbm, ⟨5, _⟩ => ⟨S16384x2, .f32⟩
  | .hbm, ⟨6, _⟩ => ⟨S16384x2, .f32⟩
  | .hbm, ⟨7, _⟩ => ⟨S16384x2, .f32⟩
  | .hbm, ⟨8, _⟩ => ⟨S16384x2, .f32⟩
  | .hbm, ⟨9, _⟩ => ⟨S_, .f32⟩
  | .hbm, ⟨10, _⟩ => ⟨S16384x2, .f32⟩
  | .hbm, ⟨11, _⟩ => ⟨S16384x2, .f32⟩
  | .hbm, ⟨12, _⟩ => ⟨S_, .f32⟩
  | .hbm, ⟨13, _⟩ => ⟨S16384x2, .f32⟩
  | .hbm, ⟨14, _⟩ => ⟨S16384x2, .f32⟩
  | .hbm, ⟨15, _⟩ => ⟨S_, .f32⟩
  | .hbm, ⟨16, _⟩ => ⟨S16384x2, .f32⟩
  | .hbm, ⟨17, _⟩ => ⟨S16384x2, .i1⟩
  | .hbm, ⟨18, _⟩ => ⟨S16384x2, .f32⟩
  | .hbm, ⟨19, _⟩ => ⟨S16384x2, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x1, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  slices_S16384x2_S16384x1_0_0 : S16384x2.Slices ![0, 0] S16384x1
  bcast_S16384x1_S16384x2048_0_1 : S16384x1.BroadcastsInDim S16384x2048 (![0, 1] : Fin 2 → Fin S16384x2048.rank)
  slices_S16384x2_S16384x1_0_1 : S16384x2.Slices ![0, 1] S16384x1
  dot_S16384x2048_S2048x2_S16384x2_1_0_0_1_n_n_wf : DotDims.WF S16384x2048 S2048x2 S16384x2 [1] [0] [0] [1] [] []

variable [Facts₀]

def dot_S16384x2048_S2048x2_S16384x2_1_0_0_1_n_n : DotDims S16384x2048 S2048x2 S16384x2 where
  lhsContracting := [1]
  rhsContracting := [0]
  lhsNonContracting := [0]
  rhsNonContracting := [1]
  lhsBatch := []
  rhsBatch := []
  wf := dot_S16384x2048_S2048x2_S16384x2_1_0_0_1_n_n_wf

class Facts : Prop extends Facts₀ where

variable [Facts]
-- ==== Proof.RouteSpec.lean ====
/-
  Threshold-gated routing of tokens to two branches, as one function of the arrays.

  For a token row r with features x(r, ·), the gate's logit for branch c is  l(r, c) = Σ_k x(r, k) · w(k, c) + b(c),
  its score is the logistic  s(r, c) = 1 / (1 + e^(−l(r, c))),  and the branch is taken when the score exceeds one half:
  g(r, c) = 1 if s(r, c) > 1/2, else 0.  The routed score of the row is  a(r) = s(r, 0)·g(r, 0) + s(r, 1)·g(r, 1)  and the
  number of branches taken is  n(r) = g(r, 0) + g(r, 1).  The two results are
      pre(r, j)  = x(r, j) · a(r)            and            post(r, j) = x(r, j) · (n(r) · a(r)).

  The dense masked form computes instead  (x·g₀)·(s₀·g₀) + (x·g₁)·(s₁·g₁)  and  (x·g₀ + x·g₁)·(s₀·g₀ + s₁·g₁).
  Because each g is 0 or 1 (so g·g = g) the two forms agree; on the extended reals the only distributive step,
  x·s₀ + x·s₁ = x·(s₀ + s₁) and x·1 + x·1 = x·(1 + 1), is taken with both summands nonnegative, where it holds for every
  x, infinite or not: a logistic score is never negative.
-/
import Idealize.ShloMosaic.PureOps.Ideal
import Idealize.ShloMosaic.Lib.ValueIdx

noncomputable section

namespace Cert.RouteSpec

open Idealize.ShloMosaic Idealize.ShloMosaic.ValueIdx

/-! ## The 0/1 weight of a strict comparison -/

/-- 1 when `h < s`, else 0. -/
def gate (s h : EReal) : EReal := if h < s then 1 else 0

theorem gate_zero_or_one (s h : EReal) : gate s h = 0 ∨ gate s h = 1 := by
  unfold gate; split_ifs
  · exact Or.inr rfl
  · exact Or.inl rfl

/-- The comparison bit, widened to 32 bits and read as a signed integer, is the 0/1 weight. -/
theorem signed_widened_cmp (s h : EReal) :
    (((((Ideal.cmp .ogt s h).setWidth 32).toInt : ℤ) : ℝ) : EReal) = gate s h := by
  unfold gate Ideal.cmp
  by_cases hlt : h < s
  · simp [hlt]
  · simp [hlt]

/-- The comparison bit read as an unsigned integer is the 0/1 weight. -/
theorem unsigned_cmp (s h : EReal) :
    ((((Ideal.cmp .ogt s h).toNat : ℕ) : ℝ) : EReal) = gate s h := by
  unfold gate Ideal.cmp
  by_cases hlt : h < s
  · simp [hlt]
  · simp [hlt]

/-! ## A logistic score is nonnegative -/

theorem logistic_nonneg (l : EReal) : 0 ≤ Ideal.logistic l := by
  induction l using EReal.rec with
  | bot => rw [Ideal.logistic_bot]
  | coe r =>
    rw [Ideal.logistic_coe]
    have : (0 : ℝ) ≤ (1 + Real.exp (-r))⁻¹ := inv_nonneg.mpr (by positivity)
    exact_mod_cast this
  | top => rw [Ideal.logistic_top]; exact zero_le_one

/-! ## The two forms of the combine agree -/

/-- Weighting each branch's masked tokens by its routed score and summing is the token times the routed score. -/
theorem pre_law (x s0 s1 g0 g1 : EReal) (h0 : 0 ≤ s0) (h1 : 0 ≤ s1) (hg0 : g0 = 0 ∨ g0 = 1) (hg1 : g1 = 0 ∨ g1 = 1) :
    x * g0 * (s0 * g0) + x * g1 * (s1 * g1) = x * (s0 * g0 + s1 * g1) := by
  rcases hg0 with rfl | rfl <;> rcases hg1 with rfl | rfl
  · simp
  · simp
  · simp
  · simp only [mul_one]; exact (EReal.left_distrib_of_nonneg h0 h1).symm

/-- Summing the masked tokens and weighting by the summed routed scores is the token times (branches taken · routed score). -/
theorem post_law (x s0 s1 g0 g1 : EReal) (hg0 : g0 = 0 ∨ g0 = 1) (hg1 : g1 = 0 ∨ g1 = 1) :
    (x * g0 + x * g1) * (s0 * g0 + s1 * g1) = x * ((g0 + g1) * (s0 * g0 + s1 * g1)) := by
  rcases hg0 with rfl | rfl <;> rcases hg1 with rfl | rfl
  · simp
  · simp
  · simp
  · rw [← EReal.left_distrib_of_nonneg (c := x) zero_le_one zero_le_one, mul_assoc]

/-! ## The specification -/

/-- One half, as the float word both programs compare against. -/
def half : EReal := Ideal.ofBits .f32 0x3F000000#32

variable (x : FVec Ideal (⟨2, ![16384, 2048]⟩ : Shape) .f32) (w : FVec Ideal (⟨2, ![2048, 2]⟩ : Shape) .f32)
  (b : FVec Ideal (⟨1, ![2]⟩ : Shape) .f32)

/-- The gate's logit of token row `r` for branch `c`. -/
def logit (r : Fin 16384) (c : Fin 2) : EReal := (∑ k : Fin 2048, x (ix2 r k) * w (ix2 k c)) + b (ix1 c)

/-- Its score. -/
def score (r : Fin 16384) (c : Fin 2) : EReal := Ideal.logistic (logit x w b r c)

/-- Whether the branch is taken, as 0 or 1. -/
def taken (r : Fin 16384) (c : Fin 2) : EReal := gate (score x w b r c) half

/-- The routed score of the row: the scores of the branches taken, summed. -/
def routed (r : Fin 16384) : EReal := score x w b r 0 * taken x w b r 0 + score x w b r 1 * taken x w b r 1

/-- How many branches the row takes. -/
def branches (r : Fin 16384) : EReal := taken x w b r 0 + taken x w b r 1

/-- The first result: each token weighted by its routed score. -/
def pre : FVec Ideal (⟨2, ![16384, 2048]⟩ : Shape) .f32 := fun i => x i * routed x w b (i 0)

/-- The second result: each token weighted by (branches taken · routed score). -/
def post : FVec Ideal (⟨2, ![16384, 2048]⟩ : Shape) .f32 := fun i => x i * (branches x w b (i 0) * routed x w b (i 0))

theorem score_nonneg (r : Fin 16384) (c : Fin 2) : 0 ≤ score x w b r c := logistic_nonneg _

/-- The dense masked form of the first result, at a row. -/
theorem pre_dense (r : Fin 16384) (xv : EReal) :
    xv * taken x w b r 0 * (score x w b r 0 * taken x w b r 0) + xv * taken x w b r 1 * (score x w b r 1 * taken x w b r 1)
      = xv * routed x w b r :=
  pre_law xv _ _ _ _ (score_nonneg x w b r 0) (score_nonneg x w b r 1) (gate_zero_or_one _ _) (gate_zero_or_one _ _)

/-- The dense masked form of the second result, at a row. -/
theorem post_dense (r : Fin 16384) (xv : EReal) :
    (xv * taken x w b r 0 + xv * taken x w b r 1) * (score x w b r 0 * taken x w b r 0 + score x w b r 1 * taken x w b r 1)
      = xv * (branches x w b r * routed x w b r) :=
  post_law xv _ _ _ _ (gate_zero_or_one _ _) (gate_zero_or_one _ _)

end Cert.RouteSpec

end
-- ==== Proof.RefIsSpec.lean ====
/-
  The reference program computes the routing specification.

  Read one operation at a time, the reference's score stage at (r, c) is 1 / (1 + e^(−l(r, c))) of the gate's logit — the
  logistic function spelt out —, its mask stage the 0/1 weight of "score > 1/2", and its two results the dense masked
  forms  (x·g₀)·(s₀·g₀) + (x·g₁)·(s₁·g₁)  and  (x·g₀ + x·g₁)·(s₀·g₀ + s₁·g₁), which the combine laws turn into
  x · a(r)  and  x · (n(r) · a(r)).
-/
import proofs.«130330_j55241869361852_2_alg».proof.Proof.Gen.ReferenceIdeal.Read
import proofs.«130330_j55241869361852_2_alg».proof.Proof.RouteSpec
import Idealize.ShloMosaic.Lib.IdealHost

noncomputable section

namespace Cert.ReferenceIdeal.RouteRef

open Cert.ReferenceIdeal Cert.ReferenceIdeal.Gen Cert.ReferenceIdeal.Read Cert.RouteSpec
open Idealize.ShloMosaic Idealize.ShloMosaic.ValueIdx

variable (x : (⟨S16384x2048, .f32⟩ : BufTy).Contents (Elt Ideal)) (w : (⟨S2048x2, .f32⟩ : BufTy).Contents (Elt Ideal))
  (b : (⟨S2, .f32⟩ : BufTy).Contents (Elt Ideal))

/-- The score stage at row `r`, branch `c` is the logistic of the gate's logit. -/
theorem score_at (r : Fin 16384) (c : Fin 2) : val_main_v9 (F := Ideal) x w b (ix2 r c) = score x w b r c := by
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  have el : ∀ k : Fin 2048, lidx_main_v0 (ix2 r c) k = ix2 r k := fun k =>
    funext fun a => Fin.ext (by match a with | ⟨0, _⟩ => rfl | ⟨1, _⟩ => rfl)
  have er : ∀ k : Fin 2048, ridx_main_v0 (ix2 r c) k = ix2 k c := fun k =>
    funext fun a => Fin.ext (by match a with | ⟨0, _⟩ => rfl | ⟨1, _⟩ => rfl)
  have eb : idx_main_v1 (idx_main_v2 (ix2 r c)) = ix1 c :=
    funext fun a => Fin.ext (by match a with | ⟨0, _⟩ => rfl)
  simp only [el, er, eb, Ideal.hostDivf_def, Ideal.addf_def, Ideal.hostUnary_exp_def, Ideal.hostNegf_def, Ideal.negf_def,
    Ideal.ofBits_def, Ideal.ofBits_one_f32]
  rfl

/-- The mask stage there is the 0/1 weight of "the score exceeds one half". -/
theorem taken_at (r : Fin 16384) (c : Fin 2) : val_main_v12 (F := Ideal) x w b (ix2 r c) = taken x w b r c := by
  rw [val_main_v12_apply, val_main_v11_apply, val_main_v10_apply, val_main_cst_1_apply, score_at]
  exact unsigned_cmp _ _

/-- The routed-score stage there is the score where the branch is taken, zero elsewhere. -/
theorem routed_at (r : Fin 16384) (c : Fin 2) :
    val_main_v13 (F := Ideal) x w b (ix2 r c) = score x w b r c * taken x w b r c := by
  rw [val_main_v13_apply, score_at, taken_at]
  rfl

/-- The first result is the token weighted by its row's routed score. -/
theorem pre_eq : val_main_v26 (F := Ideal) x w b = pre x w b := by
  funext i
  obtain ⟨r, j, rfl⟩ : ∃ (r : Fin 16384) (j : Fin 2048), i = ix2 r j := ⟨i 0, i 1, eq_ix2 i⟩
  rw [val_main_v26_apply, val_main_v23_apply, val_main_v25_apply, val_main_v16_apply, val_main_v19_apply,
    val_main_v15_apply, val_main_v14_apply, val_main_v18_apply, val_main_v17_apply,
    val_main_v22_apply, val_main_v20_apply, val_main_v24_apply, val_main_v21_apply]
  have e0 : idx_main_v14 (idx_main_v15 (ix2 r j)) = ix2 r 0 :=
    funext fun a => Fin.ext (by match a with | ⟨0, _⟩ => rfl | ⟨1, _⟩ => rfl)
  have e1 : idx_main_v17 (idx_main_v18 (ix2 r j)) = ix2 r 1 :=
    funext fun a => Fin.ext (by match a with | ⟨0, _⟩ => rfl | ⟨1, _⟩ => rfl)
  have e2 : idx_main_v20 (idx_main_v22 (ix2 r j)) = ix2 r 0 :=
    funext fun a => Fin.ext (by match a with | ⟨0, _⟩ => rfl | ⟨1, _⟩ => rfl)
  have e3 : idx_main_v21 (idx_main_v24 (ix2 r j)) = ix2 r 1 :=
    funext fun a => Fin.ext (by match a with | ⟨0, _⟩ => rfl | ⟨1, _⟩ => rfl)
  rw [e0, e1, e2, e3, taken_at, taken_at, routed_at, routed_at]
  exact pre_dense x w b r (x (ix2 r j))

/-- The second result is the token weighted by (branches taken · routed score) of its row. -/
theorem post_eq : val_main_v30 (F := Ideal) x w b = post x w b := by
  funext i
  obtain ⟨r, j, rfl⟩ : ∃ (r : Fin 16384) (j : Fin 2048), i = ix2 r j := ⟨i 0, i 1, eq_ix2 i⟩
  rw [val_main_v30_apply, val_main_v27_apply, val_main_v29_apply, val_main_v28_apply, val_main_v16_apply, val_main_v19_apply,
    val_main_v15_apply, val_main_v14_apply, val_main_v18_apply, val_main_v17_apply,
    val_main_v20_apply, val_main_v21_apply]
  have e0 : idx_main_v14 (idx_main_v15 (ix2 r j)) = ix2 r 0 :=
    funext fun a => Fin.ext (by match a with | ⟨0, _⟩ => rfl | ⟨1, _⟩ => rfl)
  have e1 : idx_main_v17 (idx_main_v18 (ix2 r j)) = ix2 r 1 :=
    funext fun a => Fin.ext (by match a with | ⟨0, _⟩ => rfl | ⟨1, _⟩ => rfl)
  have e2 : idx_main_v20 (idx_main_v29 (ix2 r j)) = ix2 r 0 :=
    funext fun a => Fin.ext (by match a with | ⟨0, _⟩ => rfl | ⟨1, _⟩ => rfl)
  have e3 : idx_main_v21 (idx_main_v29 (ix2 r j)) = ix2 r 1 :=
    funext fun a => Fin.ext (by match a with | ⟨0, _⟩ => rfl | ⟨1, _⟩ => rfl)
  rw [e0, e1, e2, e3, taken_at, taken_at, routed_at, routed_at]
  exact post_dense x w b r (x (ix2 r j))

end Cert.ReferenceIdeal.RouteRef

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KernelBlock.lean ====
/-
  What the kernel body leaves in its two output blocks, entry by entry.

  The body holds a block of 512 token rows P0 (512 × 2048), the whole gate matrix P1 (2048 × 2) and the bias P2 (2).  Its
  score at (p, c) is the logistic of  Σ_k P0(p, k) · P1(k, c) + P2(c)  (the matrix product into a zero accumulator is that
  plain sum; the bias, cast to a row and spread over the rows, contributes P2(c)); its mask is the comparison bit of
  "score > 1/2" widened and read as a signed integer, that is the 0/1 weight; the columns of scores·mask and of the
  mask are cut out, added, and spread over the 2048 lanes.  So the first block is  P0(p, q) · a(p)  and the second
  P0(p, q) · (n(p) · a(p))  with a(p) the routed score and n(p) the number of branches taken by row p of the block.
-/
import proofs.«130330_j55241869361852_2_alg».proof.Proof.Gen.KernelIdeal.Skeleton
import proofs.«130330_j55241869361852_2_alg».proof.Proof.RouteSpec
import proofs.«130330_j55241869361852_2_alg».proof.Proof.LibPlainDot
import proofs.«130330_j55241869361852_2_alg».proof.Proof.LibUnitAxes
import Idealize.ShloMosaic.Lib.ValueLayout
import Idealize.ShloMosaic.Lib.Pipeline.Value

noncomputable section

namespace Cert.KernelIdeal.RouteBlock

open Cert.KernelIdeal Cert.KernelIdeal.Gen Cert.RouteSpec
open Idealize.ShloMosaic Idealize.ShloMosaic.ValueIdx

/-! ## The product's index maps -/

theorem lhs_row (j : S512x2.Idx) (q : dot_S512x2048_S2048x2_S512x2_1_0_0_1_n_n.contr.Idx) :
    (dot_S512x2048_S2048x2_S512x2_1_0_0_1_n_n.lhsIdx j q 0).val = (j 0).val := by
  unfold DotDims.lhsIdx
  rw [dif_neg (show ¬(0 : Fin S512x2048.rank) ∈ dot_S512x2048_S2048x2_S512x2_1_0_0_1_n_n.lhsBatch by decide),
    dif_pos (show (0 : Fin S512x2048.rank) ∈ dot_S512x2048_S2048x2_S512x2_1_0_0_1_n_n.lhsNonContracting by decide)]
  rfl

theorem rhs_col (j : S512x2.Idx) (q : dot_S512x2048_S2048x2_S512x2_1_0_0_1_n_n.contr.Idx) :
    (dot_S512x2048_S2048x2_S512x2_1_0_0_1_n_n.rhsIdx j q 1).val = (j 1).val := by
  unfold DotDims.rhsIdx
  rw [dif_neg (show ¬(1 : Fin S2048x2.rank) ∈ dot_S512x2048_S2048x2_S512x2_1_0_0_1_n_n.rhsBatch by decide),
    dif_pos (show (1 : Fin S2048x2.rank) ∈ dot_S512x2048_S2048x2_S512x2_1_0_0_1_n_n.rhsNonContracting by decide)]
  rfl

variable (P0 : Vec Ideal S512x2048 .f32) (P1 : Vec Ideal S2048x2 .f32) (P2 : Vec Ideal S2 .f32)

/-! ## Scores, masks and weights of a block row -/

/-- The score of block row `p` for branch `c`. -/
def blkScore (p : Fin 512) (c : Fin 2) : EReal :=
  Ideal.logistic ((∑ k : Fin 2048, P0 (ix2 p k) * P1 (ix2 k c)) + P2 (ix1 c))

/-- Whether block row `p` takes branch `c`, as 0 or 1. -/
def blkTaken (p : Fin 512) (c : Fin 2) : EReal := gate (blkScore P0 P1 P2 p c) half

/-- The routed score of block row `p`. -/
def blkRouted (p : Fin 512) : EReal :=
  blkScore P0 P1 P2 p 0 * blkTaken P0 P1 P2 p 0 + blkScore P0 P1 P2 p 1 * blkTaken P0 P1 P2 p 1

/-- How many branches block row `p` takes. -/
def blkCount (p : Fin 512) : EReal := blkTaken P0 P1 P2 p 0 + blkTaken P0 P1 P2 p 1

/-- The score vector at (p, c). -/
theorem score_blk (p : Fin 512) (c : Fin 2) : k0_pay1 P0 P1 P2 (ix2 p c) = blkScore P0 P1 P2 p c := by
  unfold k0_pay1
  show FloatOps.logistic (F := Ideal) (FloatOps.addf (F := Ideal) (φ := .f32)
      (matmul (F := Ideal) dot_S512x2048_S2048x2_S512x2_1_0_0_1_n_n (some .fp32) P0 P1 (constant S512x2 .f32 0x00000000#32) (ix2 p c))
      (broadcastTo S512x2 (shapeCast S1x2 (P2 : FVec Ideal S2 .f32) shapeCasts_S2_S1x2) broadcasts_S1x2_S512x2 (ix2 p c))) = _
  rw [broadcastTo_1b_ab_apply, shapeCast_a_1a_apply]
  refine congrArg (fun z => Ideal.logistic (z + P2 (ix1 c))) ?_
  exact Cert.LibPlainDot.matmul_zero_apply dot_S512x2048_S2048x2_S512x2_1_0_0_1_n_n rfl rfl rfl rfl lhs_row rhs_col
    (some .fp32) P0 P1 p c

/-- The mask vector at (p, c). -/
theorem taken_blk (p : Fin 512) (c : Fin 2) : k0_pay2 P0 P1 P2 (ix2 p c) = blkTaken P0 P1 P2 p c := by
  unfold k0_pay2
  show FloatOps.sitofp (F := Ideal) .f32
      ((FloatOps.cmpf .ogt (k0_pay1 P0 P1 P2 (ix2 p c)) (Scalar.ofBits .f32 0x3F000000#32)).setWidth 32) = _
  rw [score_blk]
  exact signed_widened_cmp _ _

/-- The column of routed scores at row p. -/
theorem routed_blk (p : Fin 512) : k0_pay3 P0 P1 P2 (ix2 p (0 : Fin 1)) = blkRouted P0 P1 P2 p := by
  unfold k0_pay3
  show FloatOps.addf
      (extractStridedSlice S512x1 ![0, 0] (mulf (k0_pay1 P0 P1 P2) (k0_pay2 P0 P1 P2)) slices_S512x2_o0_0_S512x1 (ix2 p (0 : Fin 1)))
      (extractStridedSlice S512x1 ![0, 1] (mulf (k0_pay1 P0 P1 P2) (k0_pay2 P0 P1 P2)) slices_S512x2_o0_1_S512x1 (ix2 p (0 : Fin 1))) = _
  rw [slice2_axis1_apply 0 _ _ p (0 : Fin 1) (0 : Fin 2) rfl, slice2_axis1_apply 1 _ _ p (0 : Fin 1) (1 : Fin 2) rfl]
  show k0_pay1 P0 P1 P2 (ix2 p 0) * k0_pay2 P0 P1 P2 (ix2 p 0) + k0_pay1 P0 P1 P2 (ix2 p 1) * k0_pay2 P0 P1 P2 (ix2 p 1) = _
  rw [score_blk, score_blk, taken_blk, taken_blk]
  rfl

/-- The first output block at (p, q): the token entry times its row's routed score. -/
theorem pre_blk (p : Fin 512) (q : Fin 2048) :
    k0_pay4 P0 P1 P2 (ix2 p q) = P0 (ix2 p q) * blkRouted P0 P1 P2 p := by
  unfold k0_pay4
  show FloatOps.mulf (P0 (ix2 p q)) (broadcastTo S512x2048 (k0_pay3 P0 P1 P2) broadcasts_S512x1_S512x2048 (ix2 p q)) = _
  rw [Cert.LibUnitAxes.broadcastTo_a1_ab_apply, routed_blk]
  rfl

/-- The second output block at (p, q): the token entry times (branches taken · routed score) of its row. -/
theorem post_blk (p : Fin 512) (q : Fin 2048) :
    k0_pay5 P0 P1 P2 (ix2 p q) = P0 (ix2 p q) * (blkCount P0 P1 P2 p * blkRouted P0 P1 P2 p) := by
  unfold k0_pay5
  show FloatOps.mulf (P0 (ix2 p q)) (broadcastTo S512x2048
      (mulf (addf (extractStridedSlice S512x1 ![0, 0] (k0_pay2 P0 P1 P2) slices_S512x2_o0_0_S512x1)
                  (extractStridedSlice S512x1 ![0, 1] (k0_pay2 P0 P1 P2) slices_S512x2_o0_1_S512x1))
            (k0_pay3 P0 P1 P2)) broadcasts_S512x1_S512x2048 (ix2 p q)) = _
  rw [Cert.LibUnitAxes.broadcastTo_a1_ab_apply]
  show P0 (ix2 p q) * ((extractStridedSlice S512x1 ![0, 0] (k0_pay2 P0 P1 P2) slices_S512x2_o0_0_S512x1 (ix2 p (0 : Fin 1))
        + extractStridedSlice S512x1 ![0, 1] (k0_pay2 P0 P1 P2) slices_S512x2_o0_1_S512x1 (ix2 p (0 : Fin 1)))
      * k0_pay3 P0 P1 P2 (ix2 p (0 : Fin 1))) = _
  rw [slice2_axis1_apply 0 _ _ p (0 : Fin 1) (0 : Fin 2) rfl, slice2_axis1_apply 1 _ _ p (0 : Fin 1) (1 : Fin 2) rfl,
    taken_blk, taken_blk, routed_blk]
  rfl

/-- The same at any index of the block. -/
theorem pre_blk_at (y : S512x2048.Idx) : k0_pay4 P0 P1 P2 y = P0 y * blkRouted P0 P1 P2 (y 0) := by
  obtain ⟨p, q, rfl⟩ : ∃ (p : Fin 512) (q : Fin 2048), y = ix2 p q := ⟨y 0, y 1, eq_ix2 y⟩
  exact pre_blk P0 P1 P2 p q

theorem post_blk_at (y : S512x2048.Idx) :
    k0_pay5 P0 P1 P2 y = P0 y * (blkCount P0 P1 P2 (y 0) * blkRouted P0 P1 P2 (y 0)) := by
  obtain ⟨p, q, rfl⟩ : ∃ (p : Fin 512) (q : Fin 2048), y = ix2 p q := ⟨y 0, y 1, eq_ix2 y⟩
  exact post_blk P0 P1 P2 p q

/-! ## A block row is a row of the whole array -/

variable (x : FVec Ideal (⟨2, ![16384, 2048]⟩ : Shape) .f32) (w : FVec Ideal (⟨2, ![2048, 2]⟩ : Shape) .f32)
  (b : FVec Ideal (⟨1, ![2]⟩ : Shape) .f32)

/-- When block row `p` is row `r` of the token array and the block holds the whole gate matrix and bias, the block's
    score is the array's. -/
theorem blkScore_eq (p : Fin 512) (r : Fin 16384) (c : Fin 2) (h0 : ∀ k : Fin 2048, P0 (ix2 p k) = x (ix2 r k))
    (h1 : P1 = w) (h2 : P2 = b) : blkScore P0 P1 P2 p c = score x w b r c := by
  subst h1 h2
  unfold blkScore score logit
  simp only [h0]

theorem blkRouted_eq (p : Fin 512) (r : Fin 16384) (h0 : ∀ k : Fin 2048, P0 (ix2 p k) = x (ix2 r k))
    (h1 : P1 = w) (h2 : P2 = b) : blkRouted P0 P1 P2 p = routed x w b r := by
  unfold blkRouted routed blkTaken taken
  rw [blkScore_eq P0 P1 P2 x w b p r 0 h0 h1 h2, blkScore_eq P0 P1 P2 x w b p r 1 h0 h1 h2]

theorem blkCount_eq (p : Fin 512) (r : Fin 16384) (h0 : ∀ k : Fin 2048, P0 (ix2 p k) = x (ix2 r k))
    (h1 : P1 = w) (h2 : P2 = b) : blkCount P0 P1 P2 p = branches x w b r := by
  unfold blkCount branches blkTaken taken
  rw [blkScore_eq P0 P1 P2 x w b p r 0 h0 h1 h2, blkScore_eq P0 P1 P2 x w b p r 1 h0 h1 h2]

end Cert.KernelIdeal.RouteBlock

end
-- ==== Proof.KernelArray.lean ====
/-
  From blocks to the two result arrays.

  Grid point t holds rows 512·t … 512·t + 511 of the token array (all 2048 columns), the whole gate matrix and the whole
  bias, and writes back the same rows of the two results.  Row p of the block is row 512·t + p of the array, so the block
  the body leaves is the routing specification read through the point's rectangle; the 32 rectangles cover the
  16384 rows, so each result array ends as the specification of the argument arrays.
-/
import proofs.«130330_j55241869361852_2_alg».proof.Proof.Gen.KernelIdeal.Frame
import proofs.«130330_j55241869361852_2_alg».proof.Proof.KernelBlock

noncomputable section

namespace Cert.KernelIdeal.RouteArray

open Cert.KernelIdeal Cert.KernelIdeal.Gen Cert.KernelIdeal.RouteBlock Cert.RouteSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block indices over the grid: the token window and both result windows move together along the rows and stay at
    column block 0; the gate matrix and the bias stay at block 0. -/
theorem idx_facts : ∀ t : Fin cfg0.N,
    win0_0.index t (0 : Fin 2) = win0_3.index t (0 : Fin 2) ∧ win0_0.index t (1 : Fin 2) = 0
    ∧ win0_4.index t (0 : Fin 2) = win0_3.index t (0 : Fin 2) ∧ win0_4.index t (1 : Fin 2) = 0
    ∧ win0_3.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- Every row block is some point's. -/
theorem idx_onto : ∀ q : Fin 32, ∃ t : Fin cfg0.N, win0_3.index t = ![q.val, 0] ∧ win0_4.index t = ![q.val, 0] :=
  (by decide +kernel : ∀ q : Fin 32, ∃ t : Fin grid0.N, win0_3.index t = ![q.val, 0] ∧ win0_4.index t = ![q.val, 0])

/-- The gate matrix's block is the whole matrix. -/
theorem gate_blk (c : Dev nD) (t : Fin cfg0.N) : iblk m c 1 t = V m c main_arg1 := by
  obtain ⟨_, _, _, _, _, e1, e2, _⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 2048 + 1 * (y 0).val = (y 0).val; omega
  | ⟨1, _⟩ => show win0_1.index t (1 : Fin 2) * 2 + 1 * (y 1).val = (y 1).val; omega

/-- The bias's block is the whole bias. -/
theorem bias_blk (c : Dev nD) (t : Fin cfg0.N) : iblk m c 2 t = V m c main_arg2 := by
  obtain ⟨_, _, _, _, _, _, _, e⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 2 + 1 * (y 0).val = (y 0).val; omega

/-- Row `p` of the token block at point `t` is row 512·t + p of the token array: stated for the row of the array index
    under block index `j` of a result window. -/
theorem token_row (c : Dev nD) (t : Fin cfg0.N) (j : S512x2048.Idx) (k : Fin 2048) :
    iblk m c 0 t (ix2 (n0 := 512) (n1 := 2048) (j 0) k)
      = V m c main_arg0 (ix2 (n0 := 16384) (n1 := 2048) ((((cfg0.win 3).blk t).view.emb j) 0) k) := by
  obtain ⟨e0, e1, _, _, _, _, _, _⟩ := idx_facts t
  show V m c main_arg0 (((cfg0.win 0).blk t).view.emb (ix2 (n0 := 512) (n1 := 2048) (j 0) k)) = _
  refine congrArg (V m c main_arg0) (funext fun a => Fin.ext ?_)
  match a with
  | ⟨0, _⟩ => show win0_0.index t (0 : Fin 2) * 512 + 1 * (j 0).val = win0_3.index t (0 : Fin 2) * 512 + 1 * (j 0).val; omega
  | ⟨1, _⟩ => show win0_0.index t (1 : Fin 2) * 2048 + 1 * k.val = k.val; omega

/-- The token block at a block index is the token array at the array index under it (first result's window). -/
theorem token_at3 (c : Dev nD) (t : Fin cfg0.N) (j : S512x2048.Idx) :
    iblk m c 0 t j = V m c main_arg0 (((cfg0.win 3).blk t).view.emb j) := by
  obtain ⟨e0, e1, _, _, e4, _, _, _⟩ := idx_facts t
  show V m c main_arg0 (((cfg0.win 0).blk t).view.emb j) = _
  refine congrArg (V m c main_arg0) (funext fun a => Fin.ext ?_)
  match a with
  | ⟨0, _⟩ => show win0_0.index t (0 : Fin 2) * 512 + 1 * (j 0).val = win0_3.index t (0 : Fin 2) * 512 + 1 * (j 0).val; omega
  | ⟨1, _⟩ => show win0_0.index t (1 : Fin 2) * 2048 + 1 * (j 1).val = win0_3.index t (1 : Fin 2) * 2048 + 1 * (j 1).val; omega

/-- The two result windows have the same rectangle at every point. -/
theorem emb4_eq3 (t : Fin cfg0.N) (j : S512x2048.Idx) :
    ((cfg0.win 4).blk t).view.emb j = ((cfg0.win 3).blk t).view.emb j := by
  obtain ⟨_, _, e2, e3, e4, _, _, _⟩ := idx_facts t
  refine funext fun a => Fin.ext ?_
  match a with
  | ⟨0, _⟩ => show win0_4.index t (0 : Fin 2) * 512 + 1 * (j 0).val = win0_3.index t (0 : Fin 2) * 512 + 1 * (j 0).val; omega
  | ⟨1, _⟩ => show win0_4.index t (1 : Fin 2) * 2048 + 1 * (j 1).val = win0_3.index t (1 : Fin 2) * 2048 + 1 * (j 1).val; omega

/-- What point `t` writes back to the first result is block `t` of the specification of the argument arrays. -/
theorem flushed3_eq (c : Dev nD) (t : Fin cfg0.N) :
    (dats m 0 c).flushed 3 t
      = ((cfg0.win 3).blk t).view.read (Elt Ideal) (pre (V m c main_arg0) (V m c main_arg1) (V m c main_arg2)) := by
  show (cfg0.win 3).cut (grid0.coords t) ((dats m 0 c).after 3 t) = _
  rw [after0_3]
  unfold out0_3
  rw [View.canon_unit_zero zero2]
  simp only [View.ld_unit_zero (S := S512x2048) zero2, View.ld_unit_zero (S := S2048x2) zero2, View.ld_unit_zero (S := S2) zero1]
  funext j
  show k0_pay4 (iblk m c 0 t) (iblk m c 1 t) (iblk m c 2 t) j
    = pre (V m c main_arg0) (V m c main_arg1) (V m c main_arg2) (((cfg0.win 3).blk t).view.emb j)
  refine (pre_blk_at (iblk m c 0 t) (iblk m c 1 t) (iblk m c 2 t) j).trans ?_
  exact congrArg₂ (· * ·) (token_at3 m c t j)
    (blkRouted_eq (iblk m c 0 t) (iblk m c 1 t) (iblk m c 2 t) (V m c main_arg0) (V m c main_arg1) (V m c main_arg2)
      (j 0) ((((cfg0.win 3).blk t).view.emb j) 0) (token_row m c t j) (gate_blk m c t) (bias_blk m c t))

/-- What point `t` writes back to the second result is block `t` of the specification of the argument arrays. -/
theorem flushed4_eq (c : Dev nD) (t : Fin cfg0.N) :
    (dats m 0 c).flushed 4 t
      = ((cfg0.win 4).blk t).view.read (Elt Ideal) (post (V m c main_arg0) (V m c main_arg1) (V m c main_arg2)) := by
  show (cfg0.win 4).cut (grid0.coords t) ((dats m 0 c).after 4 t) = _
  rw [after0_4]
  unfold out0_4
  rw [View.canon_unit_zero zero2]
  simp only [View.ld_unit_zero (S := S512x2048) zero2, View.ld_unit_zero (S := S2048x2) zero2, View.ld_unit_zero (S := S2) zero1]
  funext j
  show k0_pay5 (iblk m c 0 t) (iblk m c 1 t) (iblk m c 2 t) j
    = post (V m c main_arg0) (V m c main_arg1) (V m c main_arg2) (((cfg0.win 4).blk t).view.emb j)
  rw [emb4_eq3 t j]
  refine (post_blk_at (iblk m c 0 t) (iblk m c 1 t) (iblk m c 2 t) j).trans ?_
  exact congrArg₂ (· * ·) (token_at3 m c t j) (congrArg₂ (· * ·)
    (blkCount_eq (iblk m c 0 t) (iblk m c 1 t) (iblk m c 2 t) (V m c main_arg0) (V m c main_arg1) (V m c main_arg2)
      (j 0) ((((cfg0.win 3).blk t).view.emb j) 0) (token_row m c t j) (gate_blk m c t) (bias_blk m c t))
    (blkRouted_eq (iblk m c 0 t) (iblk m c 1 t) (iblk m c 2 t) (V m c main_arg0) (V m c main_arg1) (V m c main_arg2)
      (j 0) ((((cfg0.win 3).blk t).view.emb j) 0) (token_row m c t j) (gate_blk m c t) (bias_blk m c t)))

/-! ## The rectangles cover the arrays -/

/-- An array index is in point `t`'s rectangle of the first result iff each coordinate is in the rectangle's range. -/
theorem mem_blk3 (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0_0).slice (win0_3.rect t)).set ↔ _
  rw [View.set_slice_whole, Rect.mem_set_unit]
  exact Iff.rfl

/-- The same for the second result. -/
theorem mem_blk4 (t : Fin cfg0.N) (i : S16384x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v0_1).slice (win0_4.rect t)).set ↔ _
  rw [View.set_slice_whole, Rect.mem_set_unit]
  exact Iff.rfl

/-- Row r lies in the rectangle of point r / 512. -/
theorem cover3 (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht, _⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

theorem cover4 (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  obtain ⟨t, _, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-! ## The arrays after the run -/

/-- The first result array ends as the specification of the argument arrays. -/
theorem final3 (c : Dev nD) : (dats m 0 c).arrAt 3 cfg0.N
    = pre (m ((c : Thread nD τ).loc main_arg0)) (m ((c : Thread nD τ).loc main_arg1)) (m ((c : Thread nD τ).loc main_arg2)) :=
  (dats m 0 c).arrAt_eq_of_cover 3 _ (fun t _ => flushed3_eq m c t) cover3

/-- The second result array ends as the specification of the argument arrays. -/
theorem final4 (c : Dev nD) : (dats m 0 c).arrAt 4 cfg0.N
    = post (m ((c : Thread nD τ).loc main_arg0)) (m ((c : Thread nD τ).loc main_arg1)) (m ((c : Thread nD τ).loc main_arg2)) :=
  (dats m 0 c).arrAt_eq_of_cover 4 _ (fun t _ => flushed4_eq m c t) cover4

/-- The run of the idealized kernel: it terminates without fault with both result arrays at the specification and the
    argument arrays as launched. -/
theorem run : θ_run defs (onTc (τ := τ) (main (F := Ideal))) ⟨m, fun _ => 0, ρ⟩ fun r => ∀ c : Dev nD,
      r.2.mem ((c : Thread nD τ).loc main_v0_0)
        = pre (m ((c : Thread nD τ).loc main_arg0)) (m ((c : Thread nD τ).loc main_arg1)) (m ((c : Thread nD τ).loc main_arg2))
      ∧ r.2.mem ((c : Thread nD τ).loc main_v0_1)
        = post (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RouteArray

end
-- ==== Proof.lean ====
/-
  Threshold-gated routing of 16384 tokens (2048 features each) to two branches: the tiled kernel against the dense masked
  reference, over the extended reals.

  Both programs compute, per token row r, the gate scores s(r, c) = logistic(Σ_k x(r, k)·w(k, c) + b(c)), c = 0, 1, and the
  0/1 masks g(r, c) = [s(r, c) > 1/2].  The kernel forms the routed score a(r) = s₀g₀ + s₁g₁ and the number of branches
  taken n(r) = g₀ + g₁ once per row and returns  x·a  and  x·(n·a);  the reference returns  (x·g₀)·(s₀g₀) + (x·g₁)·(s₁g₁)  and
  (x·g₀ + x·g₁)·(s₀g₀ + s₁g₁).  Since every mask is 0 or 1 and every score is nonnegative these are equal on the extended
  reals for every input (module RouteSpec); the precondition is not needed for that.

  The kernel side: each of the 32 grid points holds 512 token rows and writes the same rows of both results; what the body
  leaves there is the specification read through the point's rectangle (KernelBlock: the body entry by entry; KernelArray:
  from blocks to arrays, and the run).  The reference side: its run read one operation at a time is the specification after
  the combine laws (RefIsSpec).  The idealization rewrote no operation, so its ledger has no entry to restate.
-/
import proofs.«130330_j55241869361852_2_alg».proof.Defs
import proofs.«130330_j55241869361852_2_alg».proof.Proof.Gen.Kernel
import proofs.«130330_j55241869361852_2_alg».proof.Proof.Gen.Kernel.Skeleton
import proofs.«130330_j55241869361852_2_alg».proof.Proof.Gen.Kernel.Launch
import proofs.«130330_j55241869361852_2_alg».proof.Proof.Gen.Kernel.Points
import proofs.«130330_j55241869361852_2_alg».proof.Proof.Gen.Kernel.Frame
import proofs.«130330_j55241869361852_2_alg».proof.Proof.Gen.KernelIdeal
import proofs.«130330_j55241869361852_2_alg».proof.Proof.Gen.KernelIdeal.Skeleton
import proofs.«130330_j55241869361852_2_alg».proof.Proof.Gen.KernelIdeal.Launch
import proofs.«130330_j55241869361852_2_alg».proof.Proof.Gen.KernelIdeal.Points
import proofs.«130330_j55241869361852_2_alg».proof.Proof.Gen.KernelIdeal.Frame
import proofs.«130330_j55241869361852_2_alg».proof.Proof.Gen.ReferenceIdeal
import proofs.«130330_j55241869361852_2_alg».proof.Proof.Gen.ReferenceIdeal.Run
import proofs.«130330_j55241869361852_2_alg».proof.Proof.Gen.ReferenceIdeal.Read
import proofs.«130330_j55241869361852_2_alg».proof.Proof.Gen.Pre_finite_inputs
import proofs.«130330_j55241869361852_2_alg».proof.Proof.RouteSpec
import proofs.«130330_j55241869361852_2_alg».proof.Proof.RefIsSpec
import proofs.«130330_j55241869361852_2_alg».proof.Proof.KernelBlock
import proofs.«130330_j55241869361852_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its results dropped, is its frame. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both idealized programs end with the routing specification of the (agreeing) argument arrays in their two results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.RouteArray.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v26_eq, Cert.ReferenceIdeal.RouteRef.pre_eq,
      (hagree c).1, (hagree c).2.1, (hagree c).2.2]
  · rw [(h c).2.1, Cert.ReferenceIdeal.Read.val_main_v30_eq, Cert.ReferenceIdeal.RouteRef.post_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
